-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_196" .f32 0x3BA72F05#32 ((1 / 196 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x768x14x14 : Shape := ⟨4, ![1024, 768, 14, 14]⟩
abbrev S10x768 : Shape := ⟨2, ![10, 768]⟩
abbrev S10 : Shape := ⟨1, ![10]⟩
abbrev S_ : Shape := ⟨0, ![]⟩

class Facts : Prop where
  bcast_S_S1024x768x14x14 : S_.BroadcastsInDim S1024x768x14x14 (![] : Fin 0 → Fin S1024x768x14x14.rank)
  reducesTo_S1024x768x14x14_S_d0_1_2_3 : S1024x768x14x14.ReducesTo [0, 1, 2, 3] S_
  h_S_ : 0 < S_.numel
  bcast_S_S10x768 : S_.BroadcastsInDim S10x768 (![] : Fin 0 → Fin S10x768.rank)
  reducesTo_S10x768_S_d0_1 : S10x768.ReducesTo [0, 1] S_
  bcast_S_S10 : S_.BroadcastsInDim S10 (![] : Fin 0 → Fin S10.rank)
  reducesTo_S10_S_d0 : S10.ReducesTo [0] S_

variable [Facts]

def fn {F : FTy → Type} [FloatOps F] (main_arg0 : FVec F S1024x768x14x14 .f32) (main_arg1 : FVec F S10x768 .f32) (main_arg2 : FVec F S10 .f32) : IVec S_ 1 :=
  let main_v0 : FVec F S1024x768x14x14 .f32 := Host.absf main_arg0
  let main_cst : FVec F S_ .f32 := constant S_ .f32 0x7F800000#32
  let main_v1 : FVec F S1024x768x14x14 .f32 := broadcastInDim S1024x768x14x14 ![] bcast_S_S1024x768x14x14 main_cst
  let main_v2 : IVec S1024x768x14x14 1 := cmpf .olt main_v0 main_v1
  let main_c : IVec S_ 1 := constantI S_ 1 1#1
  let main_v3 : IVec S_ 1 := (fun x v => Host.reduce IntOp.andi x v reducesTo_S1024x768x14x14_S_d0_1_2_3 h_S_) main_v2 main_c
  let main_v4 : FVec F S10x768 .f32 := Host.absf main_arg1
  let main_cst_0 : FVec F S_ .f32 := constant S_ .f32 0x7F800000#32
  let main_v5 : FVec F S10x768 .f32 := broadcastInDim S10x768 ![] bcast_S_S10x768 main_cst_0
  let main_v6 : IVec S10x768 1 := cmpf .olt main_v4 main_v5
  let main_c_1 : IVec S_ 1 := constantI S_ 1 1#1
  let main_v7 : IVec S_ 1 := (fun x v => Host.reduce IntOp.andi x v reducesTo_S10x768_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  main_v13
-- ==== Kernel.lean ====
abbrev S1024x768x14x14 : Shape := ⟨4, ![1024, 768, 14, 14]⟩
abbrev S10x768 : Shape := ⟨2, ![10, 768]⟩
abbrev S10 : Shape := ⟨1, ![10]⟩
abbrev S14x14x1024x768 : Shape := ⟨4, ![14, 14, 1024, 768]⟩
abbrev S196x1024x768 : Shape := ⟨3, ![196, 1024, 768]⟩
abbrev S1x10 : Shape := ⟨2, ![1, 10]⟩
abbrev S1024x10 : Shape := ⟨2, ![1024, 10]⟩
abbrev S4x1024x768 : Shape := ⟨3, ![4, 1024, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S1024x768x14x14, .f32⟩
  | .hbm, ⟨1, _⟩ => ⟨S10x768, .f32⟩
  | .hbm, ⟨2, _⟩ => ⟨S10, .f32⟩
  | .hbm, ⟨3, _⟩ => ⟨S14x14x1024x768, .f32⟩
  | .hbm, ⟨4, _⟩ => ⟨S196x1024x768, .f32⟩
  | .hbm, ⟨5, _⟩ => ⟨S1x10, .f32⟩
  | .hbm, ⟨6, _⟩ => ⟨S1024x10, .f32⟩
  | .local _ .vmem, ⟨0, _⟩ => ⟨S4x1024x768, .f32⟩
  | .local _ .vmem, ⟨1, _⟩ => ⟨S4x1024x768, .f32⟩
  | .local _ .vmem, ⟨2, _⟩ => ⟨S10x768, .f32⟩
  | .local _ .vmem, ⟨3, _⟩ => ⟨S1x10, .f32⟩
  | .local _ .vmem, ⟨4, _⟩ => ⟨S1024x10, .f32⟩
  | .local _ .vmem, ⟨5, _⟩ => ⟨S1024x768, .f32⟩
  | _, _ => ⟨S1024x768x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![49], ![false]⟩

def k0_cond3 (i : grid0.Coords) : BitVec 1 :=
  let arg0 : BitVec 32 := BitVec.ofNat 32 (i 0).val
  let c48_i32 : BitVec 32 := 48#32
  let v9 : BitVec 1 := Scalar.cmpi .eq arg0 c48_i32
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S1024x768x14x14_S14x14x1024x768_2_3_0_1 : S1024x768x14x14.Transposes [2, 3, 0, 1] S14x14x1024x768
  shapeCasts_S14x14x1024x768_S196x1024x768 : S14x14x1024x768.ShapeCasts S196x1024x768
  shapeCasts_S10_S1x10 : S10.ShapeCasts S1x10
  inb_S4x1024x768_S4x1024x768_0_0_0 : ∀ a, (![0, 0, 0] : Fin 3 → Nat) a + S4x1024x768.size a ≤ S4x1024x768.size a
  h_S4x1024x768 : 0 < S4x1024x768.numel
  shapeCasts_S4x1024x768_S4x1024x768 : S4x1024x768.ShapeCasts S4x1024x768
  reduces_S4x1024x768_S1024x768 : S4x1024x768.Reduces [0] S1024x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S10x768_S10x768_0_0 : ∀ a, (![0, 0] : Fin 2 → Nat) a + S10x768.size a ≤ S10x768.size a
  h_S10x768 : 0 < S10x768.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1024x768_S10x768_S1024x10_1_1_0_0_n_n_wf : DotDims.WF S1024x768 S10x768 S1024x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x768.size a ≤ S196x1024x768.size a
  hwx0_0 : ∀ i : grid0.Coords, EltTy.bits .f32 = 32 ∨ (Rect.block (s := S196x1024x768) S4x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x768.size a ≤ S10x768.size a
  hwx0_1 : ∀ i : grid0.Coords, EltTy.bits .f32 = 32 ∨ (Rect.block (s := S10x768) S10x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x10.size a ≤ S1024x10.size a
  hwx0_3 : ∀ i : grid0.Coords, EltTy.bits .f32 = 32 ∨ (Rect.block (s := S1024x10) S1024x10.size (cc0_transform_3 i) (hinb0_3 i)).WholeWords (EltTy.packing .f32)

variable [Facts₀]

def dot_S1024x768_S10x768_S1024x10_1_1_0_0_n_n : DotDims S1024x768 S10x768 S1024x10 where
  lhsContracting := [1]
  rhsContracting := [1]
  lhsNonContracting := [0]
  rhsNonContracting := [0]
  lhsBatch := []
  rhsBatch := []
  wf := dot_S1024x768_S10x768_S1024x10_1_1_0_0_n_n_wf

abbrev win0_0 : Pipeline.Window sig grid0 :=
  Pipeline.Window.ofSpec (Memref.whole main_call0_v1) S4x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x10.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S1024x768x14x14 : Shape := ⟨4, ![1024, 768, 14, 14]⟩
abbrev S10x768 : Shape := ⟨2, ![10, 768]⟩
abbrev S10 : Shape := ⟨1, ![10]⟩
abbrev S_ : Shape := ⟨0, ![]⟩
abbrev S1024x768 : Shape := ⟨2, ![1024, 768]⟩
abbrev S768x10 : Shape := ⟨2, ![768, 10]⟩
abbrev S1024x10 : Shape := ⟨2, ![1024, 10]⟩
abbrev S1x10 : Shape := ⟨2, ![1, 10]⟩

abbrev nBuf : Space → Nat
  | .hbm => 16
  | .vmem => 0
  | .smem => 0
  | _ => 0

abbrev bufTy : (tb : Table) → Fin (tcTables nBuf tb) → BufTy
  | .hbm, ⟨0, _⟩ => ⟨S1024x768x14x14, .f32⟩
  | .hbm, ⟨1, _⟩ => ⟨S10x768, .f32⟩
  | .hbm, ⟨2, _⟩ => ⟨S10, .f32⟩
  | .hbm, ⟨3, _⟩ => ⟨S_, .f32⟩
  | .hbm, ⟨4, _⟩ => ⟨S1024x768, .f32⟩
  | .hbm, ⟨5, _⟩ => ⟨S_, .f32⟩
  | .hbm, ⟨6, _⟩ => ⟨S1024x768, .f32⟩
  | .hbm, ⟨7, _⟩ => ⟨S1024x768, .f32⟩
  | .hbm, ⟨8, _⟩ => ⟨S768x10, .f32⟩
  | .hbm, ⟨9, _⟩ => ⟨S1024x10, .f32⟩
  | .hbm, ⟨10, _⟩ => ⟨S1x10, .f32⟩
  | .hbm, ⟨11, _⟩ => ⟨S1024x10, .f32⟩
  | .hbm, ⟨12, _⟩ => ⟨S1024x10, .f32⟩
  | .hbm, ⟨13, _⟩ => ⟨S_, .f32⟩
  | .hbm, ⟨14, _⟩ => ⟨S1024x10, .f32⟩
  | .hbm, ⟨15, _⟩ => ⟨S1024x10, .f32⟩
  | _, _ => ⟨S1024x768x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  reducesTo_S1024x768x14x14_S1024x768_d2_3 : S1024x768x14x14.ReducesTo [2, 3] S1024x768
  h_S_ : 0 < S_.numel
  bcast_S_S1024x768 : S_.BroadcastsInDim S1024x768 (![] : Fin 0 → Fin S1024x768.rank)
  transposes_S10x768_S768x10_1_0 : S10x768.Transposes [1, 0] S768x10
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  bcast_S_S1024x10 : S_.BroadcastsInDim S1024x10 (![] : Fin 0 → Fin S1024x10.rank)
  dot_S1024x768_S768x10_S1024x10_1_0_0_1_n_n_wf : DotDims.WF S1024x768 S768x10 S1024x10 [1] [0] [0] [1] [] []

variable [Facts₀]

def dot_S1024x768_S768x10_S1024x10_1_0_0_1_n_n : DotDims S1024x768 S768x10 S1024x10 where
  lhsContracting := [1]
  rhsContracting := [0]
  lhsNonContracting := [0]
  rhsNonContracting := [1]
  lhsBatch := []
  rhsBatch := []
  wf := dot_S1024x768_S768x10_S1024x10_1_0_0_1_n_n_wf

class Facts : Prop extends Facts₀ where

variable [Facts]
-- ==== Proof.CaseValues.lean ====
/-
  What each of the kernel body's three control cases leaves behind, as values.

  Write psum for the sum of the four planes in the point's input block (the reduction along the block's first
  axis). At the first grid point the accumulator is overwritten with psum. At every later point the
  accumulator becomes its previous contents plus psum. At the last point, after that update, the output block
  is the updated accumulator times the named constant 1/196, multiplied against the weights (contracting the
  channel axis of both), plus the bias row broadcast along the rows. Each of these is one store covering its
  whole buffer, whose value is a pure function of whole-buffer loads; the load of the accumulator that feeds
  the output at the last point reads back the store made just before it.

  Stated for any float instance.
-/
import proofs.«145794_g31404800868898_cont_8to1_b_1653_12_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValues

open Cert.KernelIdeal Cert.KernelIdeal.Gen

variable {F : FTy → Type} [FloatOps F] [Named F]

theorem offsets2 : (![0, 0] : Fin 2 → Nat) = fun _ => 0 := funext fun a => by fin_cases a <;> rfl
theorem offsets3 : (![0, 0, 0] : Fin 3 → Nat) = fun _ => 0 := funext fun a => by fin_cases a <;> rfl

/-- First point: the accumulator is left holding the sum of the block's four planes. -/
theorem acc_first (c : Dev nD) (i : grid0.Coords) (a1 : Memref sig .tc .vmem S4x1024x768 .f32) (h1 : a1.IsWhole)
    (a2 : Memref sig .tc .vmem S10x768 .f32) (h2 : a2.IsWhole) (a3 : Memref sig .tc .vmem S1x10 .f32) (h3 : a3.IsWhole)
    (a4 : Memref sig .tc .vmem S1024x10 .f32) (h4 : a4.IsWhole) (a5 : Memref sig .tc .vmem S1024x768 .f32) (h5 : a5.IsWhole)
    (hc0 : cond0_0 i) (hc1 : ¬cond0_1 i) (hc2 : ¬cond0_2 i)
    (x0 : Vec F S4x1024x768 .f32) (x1 : Vec F S10x768 .f32) (x2 : Vec F S1x10 .f32) :
    sout0_A_0 c i a1 h1 a2 h2 a3 h3 a4 h4 a5 h5 hc0 hc1 hc2 x0 x1 x2 = k0_pay2 x0 := by
  unfold sout0_A_0
  rw [View.read_writes_eq_canon _ _ _ (scover0_A_0 c i a1 h1 a2 h2 a3 h3 a4 h4 a5 h5 hc0 hc1 hc2 x0 x1 x2)]
  unfold kernelRun0_A
  dsimp only
  rw [View.canon_unit_zero offsets2]
  simp only [View.readAt_eq_ld, h1.read_unread, View.ld_unit_zero (S := S4x1024x768) offsets3]

/-- A middle point: the accumulator is left holding its previous contents plus the sum of the block's four planes. -/
theorem acc_middle (c : Dev nD) (i : grid0.Coords) (a1 : Memref sig .tc .vmem S4x1024x768 .f32) (h1 : a1.IsWhole)
    (a2 : Memref sig .tc .vmem S10x768 .f32) (h2 : a2.IsWhole) (a3 : Memref sig .tc .vmem S1x10 .f32) (h3 : a3.IsWhole)
    (a4 : Memref sig .tc .vmem S1024x10 .f32) (h4 : a4.IsWhole) (a5 : Memref sig .tc .vmem S1024x768 .f32) (h5 : a5.IsWhole)
    (hc0 : ¬cond0_0 i) (hc1 : cond0_1 i) (hc2 : ¬cond0_2 i)
    (x0 : Vec F S4x1024x768 .f32) (x1 : Vec F S10x768 .f32) (x2 : Vec F S1x10 .f32) (xs0 : Vec F S1024x768 .f32) :
    sout0_B_0 c i a1 h1 a2 h2 a3 h3 a4 h4 a5 h5 hc0 hc1 hc2 x0 x1 x2 xs0 = k0_pay3 x0 xs0 := by
  unfold sout0_B_0
  rw [View.read_writes_eq_canon _ _ _ (scover0_B_0 c i a1 h1 a2 h2 a3 h3 a4 h4 a5 h5 hc0 hc1 hc2 x0 x1 x2 xs0)]
  unfold kernelRun0_B
  dsimp only
  rw [View.canon_unit_zero offsets2]
  simp only [View.readAt_eq_ld, h1.read_unread, h5.read_unread, View.ld_unit_zero (S := S4x1024x768) offsets3,
    View.ld_unit_zero (S := S1024x768) offsets2]

/-- The last point updates the accumulator the same way. -/
theorem acc_last (c : Dev nD) (i : grid0.Coords) (a1 : Memref sig .tc .vmem S4x1024x768 .f32) (h1 : a1.IsWhole)
    (a2 : Memref sig .tc .vmem S10x768 .f32) (h2 : a2.IsWhole) (a3 : Memref sig .tc .vmem S1x10 .f32) (h3 : a3.IsWhole)
    (a4 : Memref sig .tc .vmem S1024x10 .f32) (h4 : a4.IsWhole) (a5 : Memref sig .tc .vmem S1024x768 .f32) (h5 : a5.IsWhole)
    (hc0 : ¬cond0_0 i) (hc1 : cond0_1 i) (hc2 : cond0_2 i)
    (x0 : Vec F S4x1024x768 .f32) (x1 : Vec F S10x768 .f32) (x2 : Vec F S1x10 .f32) (xs0 : Vec F S1024x768 .f32) :
    sout0_C_0 c i a1 h1 a2 h2 a3 h3 a4 h4 a5 h5 hc0 hc1 hc2 x0 x1 x2 xs0 = k0_pay3 x0 xs0 := by
  unfold sout0_C_0
  rw [View.read_writes_eq_canon _ _ _ (scover0_C_0 c i a1 h1 a2 h2 a3 h3 a4 h4 a5 h5 hc0 hc1 hc2 x0 x1 x2 xs0)]
  unfold kernelRun0_C
  dsimp only
  sl_unfold_words
  rw [View.canon_unit_zero offsets2]
  simp only [View.readAt_eq_ld, h1.read_unread, h5.read_unread, View.ld_unit_zero (S := S4x1024x768) offsets3,
    View.ld_unit_zero (S := S1024x768) offsets2]

/-- The last point's output block: the classifier applied to the UPDATED accumulator, the weights block and the
    bias block. -/
theorem out_last (c : Dev nD) (i : grid0.Coords) (a1 : Memref sig .tc .vmem S4x1024x768 .f32) (h1 : a1.IsWhole)
    (a2 : Memref sig .tc .vmem S10x768 .f32) (h2 : a2.IsWhole) (a3 : Memref sig .tc .vmem S1x10 .f32) (h3 : a3.IsWhole)
    (a4 : Memref sig .tc .vmem S1024x10 .f32) (h4 : a4.IsWhole) (a5 : Memref sig .tc .vmem S1024x768 .f32) (h5 : a5.IsWhole)
    (hc0 : ¬cond0_0 i) (hc1 : cond0_1 i) (hc2 : cond0_2 i)
    (x0 : Vec F S4x1024x768 .f32) (x1 : Vec F S10x768 .f32) (x2 : Vec F S1x10 .f32) (xs0 : Vec F S1024x768 .f32) :
    out0_C_3 c i a1 h1 a2 h2 a3 h3 a4 h4 a5 h5 hc0 hc1 hc2 x0 x1 x2 xs0 = k0_pay4 (k0_pay3 x0 xs0) x1 x2 := by
  unfold out0_C_3
  rw [View.read_writes_eq_canon _ _ _ (cover0_C_3 c i a1 h1 a2 h2 a3 h3 a4 h4 a5 h5 hc0 hc1 hc2 x0 x1 x2 xs0)]
  unfold kernelRun0_C
  dsimp only
  sl_unfold_words
  rw [View.canon_unit_zero offsets2, View.readCov_unit_zero (S := S1024x768) _ offsets2]
  simp only [View.readAt_eq_ld, h1.read_unread, h2.read_unread, h3.read_unread, h5.read_unread,
    View.ld_unit_zero (S := S4x1024x768) offsets3, View.ld_unit_zero (S := S1024x768) offsets2,
    View.ld_unit_zero (S := S10x768) offsets2, View.ld_unit_zero (S := S1x10) offsets2]

end Cert.KernelIdeal.CaseValues

end
-- ==== Proof.PointValues.lean ====
/-
  What the accumulator and the output block hold after each grid point, in terms of the body's arithmetic.

  After the first point the accumulator holds the partial sum of that point's block. After any later point it
  holds what the point before left plus the partial sum of this point's block. After the last point the output
  block holds the classifier applied to the accumulator as just updated, the weights block and the bias block.
  These are the three control cases' values placed at the points where each case runs (point 0; points 1 to 47;
  point 48).

  Stated for any float instance.
-/
import proofs.«145794_g31404800868898_cont_8to1_b_1653_12_alg».proof.Proof.CaseValues

noncomputable section

open Idealize.ShloMosaic Idealize.ShloMosaic.TcCoe Idealize.SL.Sem

namespace Cert.KernelIdeal.PointValues

open Cert.KernelIdeal Cert.KernelIdeal.Gen Cert.KernelIdeal.CaseValues

variable {F : FTy → Type} [FloatOps F] [Named F]
variable (m : (ℓ : Loc nD τ sig) → Buf (Elt F) ℓ)

/-- The grid has 49 points. -/
theorem point_lt (t : Fin cfg0.N) : t.val < 49 := lt_of_lt_of_eq t.isLt (show cfg0.N = 49 from N_0)

/-- After the first point: the partial sum of its block. -/
theorem acc_at_first (c : Dev nD) (t : Fin cfg0.N) (h0 : t.val = 0) :
    (outsAt0 m c t.val t.isLt).2 = k0_pay2 (iblk m c 0 t) := by
  have hN := point_lt t
  rw [outsAt0_A m c t (by omega) (by omega) (by omega)]
  dsimp only
  exact acc_first c (grid0.coords t) (ms0_0 t) (hs0_0 t) (ms0_1 t) (hs0_1 t) (ms0_2 t) (hs0_2 t) (ms0_3 t) (hs0_3 t) scM0_0 (Memref.isWhole_whole _) _ _ _ (iblk m c 0 t) (iblk m c 1 t) (iblk m c 2 t)

/-- After a later point: what the point before left, plus the partial sum of this point's block. -/
theorem acc_at_later (c : Dev nD) (t : Fin cfg0.N) (h1 : 1 ≤ t.val) :
    (outsAt0 m c t.val t.isLt).2
      = k0_pay3 (iblk m c 0 t) (outsAt0 m c (t.val - 1) (Nat.lt_of_le_of_lt (Nat.sub_le _ _) t.isLt)).2 := by
  have hN := point_lt t
  by_cases h2 : t.val % 49 = 48
  · rw [outsAt0_C m c t (by omega) h1 h2]
    dsimp only
    exact acc_last c (grid0.coords t) (ms0_0 t) (hs0_0 t) (ms0_1 t) (hs0_1 t) (ms0_2 t) (hs0_2 t) (ms0_3 t) (hs0_3 t) scM0_0 (Memref.isWhole_whole _) _ _ _ (iblk m c 0 t) (iblk m c 1 t) (iblk m c 2 t)
      (outsAt0 m c (t.val - 1) (Nat.lt_of_le_of_lt (Nat.sub_le _ _) t.isLt)).2
  · rw [outsAt0_B m c t (by omega) h1 h2]
    dsimp only
    exact acc_middle c (grid0.coords t) (ms0_0 t) (hs0_0 t) (ms0_1 t) (hs0_1 t) (ms0_2 t) (hs0_2 t) (ms0_3 t) (hs0_3 t) scM0_0 (Memref.isWhole_whole _) _ _ _ (iblk m c 0 t) (iblk m c 1 t) (iblk m c 2 t)
      (outsAt0 m c (t.val - 1) (Nat.lt_of_le_of_lt (Nat.sub_le _ _) t.isLt)).2

/-- After the last point: the classifier of the accumulator as that point leaves it. -/
theorem out_at_last (c : Dev nD) (t : Fin cfg0.N) (h2 : t.val = 48) :
    (outsAt0 m c t.val t.isLt).1 = k0_pay4 (outsAt0 m c t.val t.isLt).2 (iblk m c 1 t) (iblk m c 2 t) := by
  have hN := point_lt t
  rw [acc_at_later m c t (by omega)]
  rw [outsAt0_C m c t (by omega) (by omega) (by omega)]
  dsimp only
  exact out_last c (grid0.coords t) (ms0_0 t) (hs0_0 t) (ms0_1 t) (hs0_1 t) (ms0_2 t) (hs0_2 t) (ms0_3 t) (hs0_3 t) scM0_0 (Memref.isWhole_whole _) _ _ _ (iblk m c 0 t) (iblk m c 1 t) (iblk m c 2 t)
    (outsAt0 m c (t.val - 1) (Nat.lt_of_le_of_lt (Nat.sub_le _ _) t.isLt)).2

end Cert.KernelIdeal.PointValues

end
-- ==== Proof.LibMatmulRows.lean ====
/-
  A matrix product that contracts the LAST axis of both operands, from the zero accumulator, read at an entry.

  With the left operand [M, K] and the right operand [N, K], both contracted on their second axis, the result
  [M, N] at (p, r) is the sum over k of left (p, k) times right (r, k): row p of the left operand against
  row r of the right one. Stated for any dimension record that lists exactly those axes, at the exact
  instance (extended reals), general in the extents and in the operands' float formats.
-/
import Idealize.ShloMosaic.Lib.ValueIdx
import Idealize.ShloMosaic.PureOps.Ideal.Laws

namespace Cert.MatmulRows

open Idealize.ShloMosaic Idealize.ShloMosaic.ValueIdx

/-- Rows against rows: `matmul` of [M, K] and [N, K] contracting axis 1 of each, accumulator zero, at (p, r). -/
theorem matmul_rows_apply {M N K : ℕ} {φ₁ φ₂ : FTy}
    (d : DotDims ⟨2, ![M, K]⟩ ⟨2, ![N, K]⟩ ⟨2, ![M, N]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![M, K]⟩ φ₁) (rhs : FVec Ideal ⟨2, ![N, K]⟩ φ₂) (p : Fin M) (r : Fin N) :
    FloatOps.matmul d prec lhs rhs (constant (F := Ideal) ⟨2, ![M, N]⟩ .f32 0x00000000#32) (ix2 p r)
      = ∑ k : Fin K, lhs (ix2 p k) * rhs (ix2 r k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p r) ((contrEquiv1 d K hr hs).symm k) = ix2 p k := funext fun a => Fin.ext (by
    match a with
    | ⟨0, h0⟩ =>
      subst hd
      unfold DotDims.lhsIdx
      rw [dif_neg List.not_mem_nil,
        dif_pos (show (⟨0, h0⟩ : Fin (⟨2, ![M, K]⟩ : Shape).rank) ∈ [0] from List.mem_singleton.mpr (Fin.ext rfl))]
      rfl
    | ⟨1, _⟩ => exact (d.lhsIdx_val_of_single hlc _ _).trans hk)
  have er : d.rhsIdx (ix2 p r) ((contrEquiv1 d K hr hs).symm k) = ix2 r k := funext fun a => Fin.ext (by
    match a with
    | ⟨0, h0⟩ =>
      subst hd
      unfold DotDims.rhsIdx
      rw [dif_neg List.not_mem_nil,
        dif_pos (show (⟨0, h0⟩ : Fin (⟨2, ![N, K]⟩ : Shape).rank) ∈ [0] from List.mem_singleton.mpr (Fin.ext rfl))]
      rfl
    | ⟨1, _⟩ => exact (d.rhsIdx_val_of_single hrc _ _).trans hk)
  rw [el, er]

end Cert.MatmulRows
-- ==== Proof.PayloadReads.lean ====
/-
  The kernel body's arithmetic read at an entry, over the extended reals.

  The partial sum of a block [4, 1024, 768] at (b, c) is the sum of its four planes at (b, c). The update adds
  that to the accumulator's entry. The classifier applied to an accumulator A, a weights block w [10, 768] and
  a bias row r [1, 10] reads, at (b, o), the sum over the 768 channels k of A (b, k) · (1/196) · w (o, k), plus
  r (0, o): the matrix product contracts the channel axis of both operands and starts from zero, the bias row
  is repeated along the rows, and the named constant denotes exactly 1/196.
-/
import proofs.«145794_g31404800868898_cont_8to1_b_1653_12_alg».proof.Proof.Gen.KernelIdeal.Skeleton
import proofs.«145794_g31404800868898_cont_8to1_b_1653_12_alg».proof.Proof.LibMatmulRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadReads

open Cert.KernelIdeal Cert.KernelIdeal.Gen Idealize.ShloMosaic Idealize.ShloMosaic.ValueIdx

/-- The named reciprocal denotes the rational 1/196. -/
theorem inv_196 : Named.named (F := Ideal) κ "inv_196" (φ := .f32) 0x3BA72F05#32 = ((1 / 196 : ℝ) : EReal) :=
  IdealRules.named_const.ideal_named_scalar _ _ _ _ rfl

/-- A sum along the first axis of [4, 1024, 768], from the zero word, at (b, c): the four planes' entries added. -/
theorem sum_planes (src : FVec Ideal S4x1024x768 .f32) (h : S4x1024x768.Reduces [0] S1024x768) (hφ : FKind.Formats .f32)
    (hacc : (0x00000000#32 : BitVec 32) = FKind.add.neutral .f32 hφ) (b : Fin 1024) (c : Fin 768) :
    multiReduction .add [0] S1024x768 src 0x00000000#32 h hφ hacc (ix2 b c)
      = src (ix3 0 b c) + src (ix3 1 b c) + src (ix3 2 b c) + src (ix3 3 b c) := by
  refine (Ideal.multiReduction_add_single src 0x00000000#32 h hφ hacc (ix2 b c)).trans ?_
  have e : ∀ k : Fin 4, h.lift (ix2 b c) k = ix3 k b c := fun k =>
    funext fun a => Fin.ext (by match a with | ⟨0, _⟩ => rfl | ⟨1, _⟩ => rfl | ⟨2, _⟩ => rfl)
  show ∑ k : Fin 4, src (h.lift (ix2 b c) k) = _
  simp only [e]
  exact Fin.sum_univ_four _

/-- The partial sum of a block at (b, c): its four planes added. -/
theorem blockSum_apply (x0 : FVec Ideal S4x1024x768 .f32) (b : Fin 1024) (c : Fin 768) :
    k0_pay1 (F := Ideal) x0 (ix2 b c) = x0 (ix3 0 b c) + x0 (ix3 1 b c) + x0 (ix3 2 b c) + x0 (ix3 3 b c) := by
  unfold k0_pay1
  refine (sum_planes _ _ _ _ b c).trans ?_
  rw [shapeCast_self]

/-- What the first point stores is the partial sum. -/
theorem first_eq (x0 : FVec Ideal S4x1024x768 .f32) : k0_pay2 (F := Ideal) x0 = k0_pay1 (F := Ideal) x0 := by
  unfold k0_pay2
  exact shapeCast_self _ _

/-- What a later point stores, at (b, c): the accumulator's entry plus the partial sum's. -/
theorem update_apply (x0 : FVec Ideal S4x1024x768 .f32) (acc : FVec Ideal S1024x768 .f32) (b : Fin 1024) (c : Fin 768) :
    k0_pay3 (F := Ideal) x0 acc (ix2 b c) = acc (ix2 b c) + k0_pay1 (F := Ideal) x0 (ix2 b c) := by
  unfold k0_pay3
  exact congrFun (shapeCast_self _ _) _

/-- The classifier at (b, o). -/
theorem classifier_apply (acc : FVec Ideal S1024x768 .f32) (w : FVec Ideal S10x768 .f32) (r : FVec Ideal S1x10 .f32)
    (b : Fin 1024) (o : Fin 10) :
    k0_pay4 (F := Ideal) acc w r (ix2 b o)
      = (∑ k : Fin 768, (acc (ix2 b k) * ((1 / 196 : ℝ) : EReal)) * w (ix2 o k)) + r (ix2 (0 : Fin 1) o) := by
  unfold k0_pay4
  refine (addf_apply _ _ _).trans ?_
  refine congrArg₂ (· + ·) ?_ ?_
  · refine (Cert.MatmulRows.matmul_rows_apply dot_S1024x768_S10x768_S1024x10_1_1_0_0_n_n none rfl rfl rfl rfl rfl rfl _ _ b o).trans ?_
    refine Finset.sum_congr rfl fun k _ => ?_
    show (acc (ix2 b k) * Named.named (F := Ideal) κ "inv_196" (φ := .f32) 0x3BA72F05#32) * w (ix2 o k) = _
    rw [inv_196]
  · refine (broadcastTo_1b_ab_apply _ _ b o).trans ?_
    exact congrFun (shapeCast_self r _) _

end Cert.KernelIdeal.PayloadReads

end
-- ==== Proof.LibMergeLeadingAxes.lean ====
/-
  The two leading axes of a rank-four array merged into one, and split again, read at an index.

  An array [a, b, c, d] and the array [n, c, d], n = a * b, whose leading axis runs over the pairs (i, j) in
  row-major order hold the same entries in the same order: entry (i * b + j, p, q) of the merged array is entry
  (i, j, p, q) of the split one. The leading position is given by an equation, so a literal position matches
  by rfl. General in the extents and in the element type.
-/
import Idealize.ShloMosaic.Lib.Pipeline.Value
import Idealize.ShloMosaic.Lib.ValueIdx

namespace Cert.MergeLeadingAxes

open Idealize.ShloMosaic Idealize.ShloMosaic.ValueIdx

variable {α : Type}

/-- [a, b, c, d] cast to [n, c, d]: entry (r, p, q) with r = i * b + j is entry (i, j, p, q). -/
theorem shapeCast_split_merged_apply {a b c d n : ℕ} (x : (⟨4, ![a, b, c, d]⟩ : Shape).Idx → α)
    (h : (⟨4, ![a, b, c, d]⟩ : Shape).ShapeCasts ⟨3, ![n, c, d]⟩) (r : Fin n) (i : Fin a) (j : Fin b) (p : Fin c) (q : Fin d)
    (hr : r.val = i.val * b + j.val) : shapeCast ⟨3, ![n, c, d]⟩ x h (ix3 r p q) = x (ix4 i j p q) :=
  shapeCast_apply x h _ _ (by
    rw [Shape.rowMajor_val_four, Shape.rowMajor_val_three]
    show ((i.val * b + j.val) * c + p.val) * d + q.val = (r.val * c + p.val) * d + q.val
    rw [hr])

/-- [n, c, d] cast to [a, b, c, d]: entry (i, j, p, q) is entry (r, p, q) with r = i * b + j. -/
theorem shapeCast_merged_split_apply {a b c d n : ℕ} (x : (⟨3, ![n, c, d]⟩ : Shape).Idx → α)
    (h : (⟨3, ![n, c, d]⟩ : Shape).ShapeCasts ⟨4, ![a, b, c, d]⟩) (r : Fin n) (i : Fin a) (j : Fin b) (p : Fin c) (q : Fin d)
    (hr : r.val = i.val * b + j.val) : shapeCast ⟨4, ![a, b, c, d]⟩ x h (ix4 i j p q) = x (ix3 r p q) :=
  shapeCast_apply x h _ _ (by
    rw [Shape.rowMajor_val_three, Shape.rowMajor_val_four]
    show (r.val * c + p.val) * d + q.val = ((i.val * b + j.val) * c + p.val) * d + q.val
    rw [hr])

end Cert.MergeLeadingAxes
-- ==== Proof.BlockReads.lean ====
/-
  The kernel's input blocks, read at an entry, as entries of the argument arrays.

  Before the call the host transposes the feature map [1024, 768, 14, 14] to [14, 14, 1024, 768] and merges the
  two leading axes: the planes array [196, 1024, 768], whose entry (p, b, c) is the feature map's entry
  (b, c, p / 14, p % 14). The first window's block at grid point t is planes 4 t .. 4 t + 3 of it, so its
  entry (j, b, c) is the feature map's entry (b, c, (4 t + j) / 14, (4 t + j) % 14). The weights' block is the
  whole weights array at every point, and the bias block is the bias laid out as one row.

  Stated for any float instance: these are re-indexings, no arithmetic.
-/
import proofs.«145794_g31404800868898_cont_8to1_b_1653_12_alg».proof.Proof.Gen.KernelIdeal.Frame
import proofs.«145794_g31404800868898_cont_8to1_b_1653_12_alg».proof.Proof.LibMergeLeadingAxes
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem

namespace Cert.KernelIdeal.BlockReads

open Cert.KernelIdeal Cert.KernelIdeal.Gen Idealize.ShloMosaic.ValueIdx

variable {F : FTy → Type} [FloatOps F] [Named F]
variable (m : (ℓ : Loc nD τ sig) → Buf (Elt F) ℓ)

/-- The planes array as the region finds it: the feature map transposed, its two leading axes merged. -/
theorem planes_eq (c : Dev nD) :
    (V m c main_call0_v1 : S196x1024x768.Idx → Elt F .f32)
      = shapeCast S196x1024x768
          (transpose S14x14x1024x768 [2, 3, 0, 1] (m ((c : Thread nD τ).loc main_arg0))
            transposes_S1024x768x14x14_S14x14x1024x768_2_3_0_1)
          shapeCasts_S14x14x1024x768_S196x1024x768 := by
  dsimp only [Gen.V, Gen.hostOps0]
  after_results
  rfl

/-- The bias row as the region finds it: the bias vector laid out as one row. -/
theorem biasRow_eq (c : Dev nD) :
    (V m c main_call0_v2 : S1x10.Idx → Elt F .f32)
      = shapeCast S1x10 (m ((c : Thread nD τ).loc main_arg2)) shapeCasts_S10_S1x10 := by
  dsimp only [Gen.V, Gen.hostOps0]
  after_results
  rfl

/-- Entry (p, b, k) of the planes array is the feature map's entry (b, k, p / 14, p % 14). -/
theorem planes_apply (c : Dev nD) (p : Fin 196) (b : Fin 1024) (k : Fin 768) :
    (V m c main_call0_v1 : S196x1024x768.Idx → Elt F .f32) (ix3 p b k)
      = m ((c : Thread nD τ).loc main_arg0)
          (ix4 b k ⟨p.val / 14, by have := p.isLt; omega⟩ ⟨p.val % 14, Nat.mod_lt _ (by decide)⟩) := by
  rw [planes_eq]
  refine (Cert.MergeLeadingAxes.shapeCast_split_merged_apply _ _ p
    (⟨p.val / 14, by have := p.isLt; omega⟩ : Fin 14) (⟨p.val % 14, Nat.mod_lt _ (by decide)⟩ : Fin 14) b k
    (Nat.div_add_mod' p.val 14).symm).trans ?_
  exact transpose_apply [2, 3, 0, 1] _ _ _ (ix4 b k ⟨p.val / 14, by have := p.isLt; omega⟩ ⟨p.val % 14, Nat.mod_lt _ (by decide)⟩)
    (fun a => match a with
      | ⟨0, _⟩ => rfl
      | ⟨1, _⟩ => rfl
      | ⟨2, _⟩ => rfl
      | ⟨3, _⟩ => rfl)

/-- The windows' block indices over the grid: the first window moves along the plane axis only, the others stay. -/
theorem index_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- Entry (j, b, k) of the first window's block at point t is entry (4 t + j, b, k) of the planes array. -/
theorem block0_apply (c : Dev nD) (t : Fin cfg0.N) (j : Fin 4) (b : Fin 1024) (k : Fin 768) :
    (iblk m c 0 t : Vec F S4x1024x768 .f32) (ix3 j b k)
      = (V m c main_call0_v1 : S196x1024x768.Idx → Elt F .f32)
          (ix3 ⟨4 * t.val + j.val, by have := lt_of_lt_of_eq t.isLt (show cfg0.N = 49 from N_0); have := j.isLt; omega⟩ b k) := by
  unfold iblk
  rw [View.read_apply]
  show V m c main_call0_v1 _ = V m c main_call0_v1 _
  refine congrArg (V m c main_call0_v1) (funext fun a => Fin.ext ?_)
  have hi := (index_facts t).1
  match a with
  | ⟨0, _⟩ => show win0_0.index t 0 * 4 + 1 * j.val = 4 * t.val + j.val; rw [hi.1]; omega
  | ⟨1, _⟩ => show win0_0.index t 1 * 1024 + 1 * b.val = b.val; rw [hi.2.1]; omega
  | ⟨2, _⟩ => show win0_0.index t 2 * 768 + 1 * k.val = k.val; rw [hi.2.2]; omega

/-- So it is the feature map's entry (b, k, (4 t + j) / 14, (4 t + j) % 14). -/
theorem block0_feature (c : Dev nD) (t : Fin cfg0.N) (j : Fin 4) (b : Fin 1024) (k : Fin 768)
    (hlt : 4 * t.val + j.val < 196) :
    (iblk m c 0 t : Vec F S4x1024x768 .f32) (ix3 j b k)
      = m ((c : Thread nD τ).loc main_arg0)
          (ix4 b k ⟨(4 * t.val + j.val) / 14, by omega⟩ ⟨(4 * t.val + j.val) % 14, Nat.mod_lt _ (by decide)⟩) :=
  (block0_apply m c t j b k).trans (planes_apply m c ⟨4 * t.val + j.val, hlt⟩ b k)

/-- The weights' block at any point is the weights array. -/
theorem block1_eq (c : Dev nD) (t : Fin cfg0.N) :
    (iblk m c 1 t : Vec F S10x768 .f32) = m ((c : Thread nD τ).loc main_arg1) := by
  funext y
  unfold iblk
  rw [View.read_apply]
  show V m c main_arg1 _ = _
  rw [V_main_arg1]
  refine congrArg (m ((c : Thread nD τ).loc main_arg1)) (funext fun a => Fin.ext ?_)
  have hi := (index_facts t).2.1
  match a with
  | ⟨0, _⟩ => show win0_1.index t 0 * 10 + 1 * (y 0).val = (y 0).val; rw [hi.1]; omega
  | ⟨1, _⟩ => show win0_1.index t 1 * 768 + 1 * (y 1).val = (y 1).val; rw [hi.2]; omega

/-- The bias block at any point, at (u, o), is the bias at o. -/
theorem block2_apply (c : Dev nD) (t : Fin cfg0.N) (u : Fin 1) (o : Fin 10) :
    (iblk m c 2 t : Vec F S1x10 .f32) (ix2 u o) = m ((c : Thread nD τ).loc main_arg2) (ix1 o) := by
  unfold iblk
  rw [View.read_apply]
  show V m c main_call0_v2 _ = _
  have hi := (index_facts t).2.2.1
  have e : ((cfg0.win 2).blk t).view.emb (ix2 u o) = (ix2 u o : S1x10.Idx) := funext fun a => Fin.ext (by
    match a with
    | ⟨0, _⟩ => show win0_2.index t 0 * 1 + 1 * u.val = u.val; rw [hi.1]; omega
    | ⟨1, _⟩ => show win0_2.index t 1 * 10 + 1 * o.val = o.val; rw [hi.2]; omega)
  rw [e, biasRow_eq]
  exact shapeCast_a_1a_apply _ _ u o

end Cert.KernelIdeal.BlockReads

end
-- ==== Proof.PoolSpec.lean ====
/-
  Global average pooling followed by a linear classifier, as one function of the argument arrays over the
  extended reals.

  The feature map is [1024, 768, 14, 14]. Its 196 spatial positions are numbered in row-major order,
  position p being (p / 14, p % 14); plane p of the map at (b, c) is the entry at that position. The pooled
  feature at (b, c) is the sum of the 196 planes times 1/196, and the score at (b, o) is the sum over the
  768 channels c of the pooled feature at (b, c) times the weight at (o, c), plus the bias at o.

  The sum of the planes is taken over a range of natural numbers, so that it can be built up a few planes at a
  time: the first N + 4 planes are the first N and then four more. Sums in the extended reals commute and
  associate without any finiteness assumption, which is all the regrouping needs.
-/
import Idealize.ShloMosaic.PureOps.Ideal
import Idealize.ShloMosaic.PureOps.Ideal.Laws
import Idealize.ShloMosaic.Lib.ValueIdx

noncomputable section

namespace Cert.PoolSpec

open Idealize.ShloMosaic Idealize.ShloMosaic.ValueIdx

/-- Plane p of the feature map at (b, c): the entry at spatial position (p / 14, p % 14); zero from the 196th on. -/
def plane (fea : (⟨4, ![1024, 768, 14, 14]⟩ : Shape).Idx → EReal) (b : Fin 1024) (c : Fin 768) (p : ℕ) : EReal :=
  if h : p < 196 then fea (ix4 b c ⟨p / 14, by omega⟩ ⟨p % 14, Nat.mod_lt _ (by decide)⟩) else 0

theorem plane_of_lt (fea : (⟨4, ![1024, 768, 14, 14]⟩ : Shape).Idx → EReal) (b : Fin 1024) (c : Fin 768) (p : ℕ)
    (h : p < 196) : plane fea b c p = fea (ix4 b c ⟨p / 14, by omega⟩ ⟨p % 14, Nat.mod_lt _ (by decide)⟩) :=
  dif_pos h

/-- The sum of the first N planes at (b, c). -/
def planeSum (fea : (⟨4, ![1024, 768, 14, 14]⟩ : Shape).Idx → EReal) (N : ℕ) (b : Fin 1024) (c : Fin 768) : EReal :=
  ∑ p ∈ Finset.range N, plane fea b c p

/-- The first four planes. -/
theorem planeSum_four (fea : (⟨4, ![1024, 768, 14, 14]⟩ : Shape).Idx → EReal) (b : Fin 1024) (c : Fin 768) :
    planeSum fea 4 b c = plane fea b c 0 + plane fea b c 1 + plane fea b c 2 + plane fea b c 3 := by
  unfold planeSum
  rw [Finset.sum_range_succ, Finset.sum_range_succ, Finset.sum_range_succ, Finset.sum_range_succ,
    Finset.sum_range_zero, zero_add]

/-- Four more planes: the first N + 4 are the first N and then planes N, N + 1, N + 2, N + 3. -/
theorem planeSum_add_four (fea : (⟨4, ![1024, 768, 14, 14]⟩ : Shape).Idx → EReal) (N : ℕ) (b : Fin 1024) (c : Fin 768) :
    planeSum fea (N + 4) b c
      = planeSum fea N b c + (plane fea b c N + plane fea b c (N + 1) + plane fea b c (N + 2) + plane fea b c (N + 3)) := by
  unfold planeSum
  rw [Finset.sum_range_succ, Finset.sum_range_succ, Finset.sum_range_succ, Finset.sum_range_succ]
  simp only [add_assoc]

/-- All 196 planes, as a sum over the positions themselves. -/
theorem planeSum_all (fea : (⟨4, ![1024, 768, 14, 14]⟩ : Shape).Idx → EReal) (b : Fin 1024) (c : Fin 768) :
    planeSum fea 196 b c
      = ∑ p : Fin 196, fea (ix4 b c ⟨p.val / 14, by have := p.isLt; omega⟩ ⟨p.val % 14, Nat.mod_lt _ (by decide)⟩) := by
  unfold planeSum
  rw [Finset.sum_range]
  exact Finset.sum_congr rfl fun p _ => plane_of_lt fea b c p.val p.isLt

/-- The score at (b, o): the pooled features of row b against row o of the weights, plus the bias at o. -/
def score (fea : (⟨4, ![1024, 768, 14, 14]⟩ : Shape).Idx → EReal) (w : (⟨2, ![10, 768]⟩ : Shape).Idx → EReal)
    (bias : (⟨1, ![10]⟩ : Shape).Idx → EReal) (b : Fin 1024) (o : Fin 10) : EReal :=
  (∑ k : Fin 768, (planeSum fea 196 b k * ((1 / 196 : ℝ) : EReal)) * w (ix2 o k)) + bias (ix1 o)

/-- The scores as an array [1024, 10]. -/
def scores (fea : (⟨4, ![1024, 768, 14, 14]⟩ : Shape).Idx → EReal) (w : (⟨2, ![10, 768]⟩ : Shape).Idx → EReal)
    (bias : (⟨1, ![10]⟩ : Shape).Idx → EReal) : (⟨2, ![1024, 10]⟩ : Shape).Idx → EReal :=
  fun i => score fea w bias (i 0) (i 1)

theorem scores_apply (fea : (⟨4, ![1024, 768, 14, 14]⟩ : Shape).Idx → EReal) (w : (⟨2, ![10, 768]⟩ : Shape).Idx → EReal)
    (bias : (⟨1, ![10]⟩ : Shape).Idx → EReal) (b : Fin 1024) (o : Fin 10) :
    scores fea w bias (ix2 b o) = score fea w bias b o := rfl

/-! ## The float patterns the two programs spell, and division by them -/

/-- The pattern of 196.0 denotes the real 196. -/
theorem ofBits_196 : Ideal.ofBits .f32 0x43440000#32 = ((196 : ℝ) : EReal) := by
  simp [Ideal.ofBits, Ideal.ieee, -EReal.coe_mul]; norm_num

/-- The pattern of 1.0 denotes 1. -/
theorem ofBits_one : Ideal.ofBits .f32 0x3F800000#32 = ((1 : ℝ) : EReal) := by
  simp [Ideal.ofBits, Ideal.ieee, -EReal.coe_mul]; norm_num

/-- Dividing by 196 is multiplying by 1/196, at every extended real. -/
theorem div_196 (x : EReal) : Ideal.div x (Ideal.ofBits .f32 0x43440000#32) = x * ((1 / 196 : ℝ) : EReal) := by
  rw [ofBits_196, Ideal.div_coe (by norm_num)]

/-- Dividing by 1 changes nothing, at every extended real. -/
theorem div_one (x : EReal) : Ideal.div x (Ideal.ofBits .f32 0x3F800000#32) = x := by
  rw [ofBits_one, Ideal.div_coe (by norm_num)]
  simp

end Cert.PoolSpec

end
-- ==== Proof.Accumulate.lean ====
/-
  The accumulator after grid point n holds the sum of the first 4 (n + 1) planes of the feature map.

  Point t's block holds planes 4 t, 4 t + 1, 4 t + 2, 4 t + 3, so its partial sum at (b, k) is those four planes'
  entries added. The first point stores its partial sum: the first four planes. Every later point adds its
  partial sum to what the point before left: by induction the first 4 (n + 1) planes and then four more, which
  is the first 4 (n + 2). Only commutativity and associativity of addition on the extended reals are used, so
  no finiteness of the inputs is needed.
-/
import proofs.«145794_g31404800868898_cont_8to1_b_1653_12_alg».proof.Proof.PointValues
import proofs.«145794_g31404800868898_cont_8to1_b_1653_12_alg».proof.Proof.PayloadReads
import proofs.«145794_g31404800868898_cont_8to1_b_1653_12_alg».proof.Proof.BlockReads
import proofs.«145794_g31404800868898_cont_8to1_b_1653_12_alg».proof.Proof.PoolSpec

noncomputable section

open Idealize.ShloMosaic Idealize.ShloMosaic.TcCoe Idealize.SL.Sem

namespace Cert.KernelIdeal.Accumulate

open Cert.KernelIdeal Cert.KernelIdeal.Gen Cert.PoolSpec Idealize.ShloMosaic.ValueIdx
open Cert.KernelIdeal.PointValues Cert.KernelIdeal.PayloadReads Cert.KernelIdeal.BlockReads

variable (m : (ℓ : Loc nD τ sig) → Buf (Elt Ideal) ℓ)

/-- Entry (j, b, k) of point t's block is plane 4 t + j of the feature map at (b, k). -/
theorem block0_plane (c : Dev nD) (t : Fin cfg0.N) (j : Fin 4) (b : Fin 1024) (k : Fin 768) :
    (iblk m c 0 t : Vec Ideal S4x1024x768 .f32) (ix3 j b k)
      = plane (m ((c : Thread nD τ).loc main_arg0)) b k (4 * t.val + j.val) := by
  have hlt : 4 * t.val + j.val < 196 := by have := point_lt t; have := j.isLt; omega
  rw [plane_of_lt _ b k _ hlt]
  exact block0_feature m c t j b k hlt

/-- The partial sum of point t's block at (b, k): planes 4 t to 4 t + 3 added. -/
theorem blockSum_planes (c : Dev nD) (t : Fin cfg0.N) (b : Fin 1024) (k : Fin 768) :
    k0_pay1 (F := Ideal) (iblk m c 0 t) (ix2 b k)
      = plane (m ((c : Thread nD τ).loc main_arg0)) b k (4 * t.val)
        + plane (m ((c : Thread nD τ).loc main_arg0)) b k (4 * t.val + 1)
        + plane (m ((c : Thread nD τ).loc main_arg0)) b k (4 * t.val + 2)
        + plane (m ((c : Thread nD τ).loc main_arg0)) b k (4 * t.val + 3) := by
  refine (blockSum_apply (iblk m c 0 t) b k).trans ?_
  exact congrArg₂ (· + ·) (congrArg₂ (· + ·) (congrArg₂ (· + ·) (block0_plane m c t 0 b k) (block0_plane m c t 1 b k))
    (block0_plane m c t 2 b k)) (block0_plane m c t 3 b k)

/-- After point n the accumulator at (b, k) is the sum of the first 4 (n + 1) planes. -/
theorem acc_apply (c : Dev nD) : ∀ (n : ℕ) (hn : n < cfg0.N) (b : Fin 1024) (k : Fin 768),
    (outsAt0 m c n hn).2 (ix2 b k) = planeSum (m ((c : Thread nD τ).loc main_arg0)) (4 * (n + 1)) b k
  | 0, hn, b, k => by
    refine (congrFun (acc_at_first m c ⟨0, hn⟩ rfl) (ix2 b k)).trans ?_
    refine (congrFun (first_eq (iblk m c 0 ⟨0, hn⟩)) (ix2 b k)).trans ?_
    refine (blockSum_planes m c ⟨0, hn⟩ b k).trans ?_
    exact (planeSum_four _ b k).symm
  | n + 1, hn, b, k => by
    refine (congrFun (acc_at_later m c ⟨n + 1, hn⟩ (Nat.succ_le_succ (Nat.zero_le n))) (ix2 b k)).trans ?_
    refine (update_apply (iblk m c 0 ⟨n + 1, hn⟩) _ b k).trans ?_
    rw [show 4 * (n + 1 + 1) = 4 * (n + 1) + 4 from by omega, planeSum_add_four]
    exact congrArg₂ (· + ·) (acc_apply c n (Nat.lt_of_succ_lt hn) b k) (blockSum_planes m c ⟨n + 1, hn⟩ b k)

/-- After the last point the accumulator at (b, k) is the sum of all 196 planes. -/
theorem acc_final (c : Dev nD) (t : Fin cfg0.N) (h : t.val = 48) (b : Fin 1024) (k : Fin 768) :
    (outsAt0 m c t.val t.isLt).2 (ix2 b k) = planeSum (m ((c : Thread nD τ).loc main_arg0)) 196 b k := by
  obtain ⟨n, hn⟩ := t
  dsimp only at h
  subst h
  exact acc_apply m c 48 hn b k

end Cert.KernelIdeal.Accumulate

end
-- ==== Proof.KernelScores.lean ====
/-
  The kernel's result array is the scores array.

  The output window has one block, the whole array [1024, 10], and it is written back once, after the last grid
  point. What that point leaves in it, at (b, o), is the sum over the channels k of the accumulator's entry
  (b, k) — by then the sum of all 196 planes — times 1/196 times the weight (o, k), plus the bias at o: the
  score at (b, o). Since that one block covers the array, the array ends holding the scores.
-/
import proofs.«145794_g31404800868898_cont_8to1_b_1653_12_alg».proof.Proof.Gen.KernelIdeal.Value
import proofs.«145794_g31404800868898_cont_8to1_b_1653_12_alg».proof.Proof.Accumulate

noncomputable section

open Idealize.ShloMosaic Idealize.ShloMosaic.TcCoe Idealize.SL.Sem
open Idealize.ShloMosaic.Pipeline (Dat)

namespace Cert.KernelIdeal.KernelScores

open Cert.KernelIdeal Cert.KernelIdeal.Gen Cert.PoolSpec Idealize.ShloMosaic.ValueIdx
open Cert.KernelIdeal.PointValues Cert.KernelIdeal.PayloadReads Cert.KernelIdeal.BlockReads Cert.KernelIdeal.Accumulate

variable (m : (ℓ : Loc nD τ sig) → Buf (Elt Ideal) ℓ) (ρ : Dev nD → PrngReg)

/-- The scores of the argument arrays as launched, as contents of the result array. -/
abbrev result (c : Dev nD) : Buf (Elt Ideal) ((c : Thread nD τ).loc main_v0) :=
  scores (m ((c : Thread nD τ).loc main_arg0)) (m ((c : Thread nD τ).loc main_arg1)) (m ((c : Thread nD τ).loc main_arg2))

/-- What the last point leaves in the output block, at (b, o), is the score at (b, o). -/
theorem out_apply (c : Dev nD) (t : Fin cfg0.N) (h : t.val = 48) (b : Fin 1024) (o : Fin 10) :
    (outsAt0 m c t.val t.isLt).1 (ix2 b o)
      = score (m ((c : Thread nD τ).loc main_arg0)) (m ((c : Thread nD τ).loc main_arg1))
          (m ((c : Thread nD τ).loc main_arg2)) b o := by
  refine (congrFun (out_at_last m c t h) (ix2 b o)).trans ?_
  refine (classifier_apply (outsAt0 m c t.val t.isLt).2 (iblk m c 1 t) (iblk m c 2 t) b o).trans ?_
  unfold score
  refine congrArg₂ (· + ·) (Finset.sum_congr rfl fun k _ => ?_) (block2_apply m c t 0 o)
  rw [acc_final m c t h b k, block1_eq m c t]

/-- The output window's one block sits at the array's origin. -/
theorem emb_eq (t : Fin cfg0.N) (b : Fin 1024) (o : Fin 10) :
    ((cfg0.win 3).blk t).view.emb (ix2 b o) = (ix2 b o : S1024x10.Idx) := by
  have hi := (index_facts t).2.2.2
  funext a
  apply Fin.ext
  match a with
  | ⟨0, _⟩ => show win0_3.index t 0 * 1024 + 1 * b.val = b.val; rw [hi.1]; omega
  | ⟨1, _⟩ => show win0_3.index t 1 * 10 + 1 * o.val = o.val; rw [hi.2]; omega

/-- The one write-back, after the last point, writes the scores. -/
theorem flushed_eq (c : Dev nD) (t : Fin cfg0.N) (hf : (cfg0.win 3).flush t = true) :
    (dats m 0 c).flushed 3 t = ((cfg0.win 3).blk t).view.read (Elt Ideal) (result m c) := by
  have h48 : t.val = 48 := by have := (flush0_3 t).mp hf; have := point_lt t; omega
  rw [Cert.KernelIdeal.Value.flushed3]
  funext y
  obtain ⟨b, o, rfl⟩ : ∃ (b : Fin 1024) (o : Fin 10), y = ix2 b o := ⟨y 0, y 1, eq_ix2 y⟩
  show (outsAt0 m c t.val t.isLt).1 (ix2 b o) = result m c (((cfg0.win 3).blk t).view.emb (ix2 b o))
  rw [emb_eq t b o]
  exact out_apply m c t h48 b o

/-- An index of the array is in point t's block iff each coordinate is in the block's range on its axis. -/
theorem mem_blk (t : Fin cfg0.N) (i : S1024x10.Idx) :
    i ∈ ((cfg0.win 3).blk t).view.set
      ↔ ∀ a : Fin 2, win0_3.index t a * S1024x10.size a ≤ (i a).val ∧ (i a).val < win0_3.index t a * S1024x10.size a + S1024x10.size a := by
  show i ∈ ((View.whole main_v0).slice (win0_3.rect t)).set ↔ _
  rw [View.set_slice_whole, Rect.mem_set_unit]
  exact Iff.rfl

/-- The last grid point. -/
def lastPoint : Fin cfg0.N := ⟨48, by rw [show cfg0.N = 49 from N_0]; decide⟩

/-- So the result array ends holding the scores. -/
theorem final (c : Dev nD) : (dats m 0 c).arrAt 3 cfg0.N = result m c :=
  (dats m 0 c).arrAt_eq_of_cover 3 (result m c) (flushed_eq m c) fun i => by
    refine ⟨lastPoint, (flush0_3 lastPoint).mpr (by decide), ?_⟩
    rw [mem_blk]
    have hi := (index_facts lastPoint).2.2.2
    have h0 : (i 0).val < 1024 := (i 0).isLt
    have h1 : (i 1).val < 10 := (i 1).isLt
    intro a
    match a with
    | ⟨0, _⟩ =>
      show win0_3.index lastPoint 0 * 1024 ≤ (i 0).val ∧ (i 0).val < win0_3.index lastPoint 0 * 1024 + 1024
      rw [hi.1]; omega
    | ⟨1, _⟩ =>
      show win0_3.index lastPoint 1 * 10 ≤ (i 1).val ∧ (i 1).val < win0_3.index lastPoint 1 * 10 + 10
      rw [hi.2]; omega

/-- The run, read: the result array at the scores of the arguments as launched, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KernelScores

end
-- ==== Proof.LibLastTwoAxesSum.lean ====
/-
  A host sum over the LAST TWO axes of a rank-four array, read at an entry, and the double sum it gives
  flattened into one sum over the pairs in row-major order.

  For an array [a, b, c, d] reduced along its axes 2 and 3 into [a, b], the entry at (p, q) of the result is
  the initial value plus the sum, over r and s, of the entries (p, q, r, s): exactly the indices whose first
  two coordinates are (p, q). This is what a global sum or mean over the two spatial axes of a feature map
  computes on the host at the exact instance (extended reals).

  The pairs (r, s) of Fin c x Fin d in row-major order are the numbers k below c * d, with r = k / d and
  s = k % d; the double sum is the sum over those k. The product c * d is given by an equation, so a literal
  extent matches by rfl. General in the extents, the second statement in any commutative additive monoid.
-/
import Idealize.ShloMosaic.Lib.ValueIdx
import Idealize.ShloMosaic.PureOps.Ideal.Laws

namespace Cert.LastTwoAxesSum

open Idealize.ShloMosaic Idealize.ShloMosaic.ValueIdx

variable {a b c d : ℕ}

/-- Dropping the last two coordinates of (p, q, r, s) leaves (p, q). -/
theorem drop_ix4 (h : (⟨4, ![a, b, c, d]⟩ : Shape).ReducesTo [2, 3] ⟨2, ![a, b]⟩) (p : Fin a) (q : Fin b) (r : Fin c)
    (s : Fin d) : h.drop (ix4 p q r s) = ix2 p q := by
  funext e
  match e with
  | ⟨0, _⟩ => rfl
  | ⟨1, _⟩ => rfl

/-- An index whose first two coordinates are (p, q) is (p, q, its third coordinate, its fourth). -/
theorem eq_ix4_of_drop (h : (⟨4, ![a, b, c, d]⟩ : Shape).ReducesTo [2, 3] ⟨2, ![a, b]⟩)
    (i : (⟨4, ![a, b, c, d]⟩ : Shape).Idx) (p : Fin a) (q : Fin b) (hd : h.drop i = ix2 p q) :
    i = ix4 p q (i 2) (i 3) := by
  have h0 : (i 0).val = p.val := congrArg Fin.val (congrFun hd 0)
  have h1 : (i 1).val = q.val := congrArg Fin.val (congrFun hd 1)
  funext e
  match e with
  | ⟨0, _⟩ => exact Fin.ext h0
  | ⟨1, _⟩ => exact Fin.ext h1
  | ⟨2, _⟩ => rfl
  | ⟨3, _⟩ => rfl

/-- The host's sum along axes 2 and 3 of [a, b, c, d], at (p, q): the initial value plus the sum over (r, s) of
    the entries (p, q, r, s). -/
theorem hostSum_last2 (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ r : Fin c, ∑ s : Fin d, x (ix4 p q r s) := by
  unfold Ideal.hostReduceAdd
  congr 1
  rw [← Fintype.sum_prod_type' (f := fun (r : Fin c) (s : Fin d) => x (ix4 p q r s))]
  symm
  refine Finset.sum_bij (fun rs _ => ix4 p q rs.1 rs.2) ?_ ?_ ?_ ?_
  · intro rs _
    exact Finset.mem_filter.mpr ⟨Finset.mem_univ _, drop_ix4 h p q rs.1 rs.2⟩
  · intro rs _ rs' _ he
    have h2 : rs.1 = rs'.1 := congrFun he 2
    have h3 : rs.2 = rs'.2 := congrFun he 3
    exact Prod.ext h2 h3
  · intro i hi
    exact ⟨(i 2, i 3), Finset.mem_univ _, (eq_ix4_of_drop h i p q (Finset.mem_filter.mp hi).2).symm⟩
  · intro rs _
    rfl

/-- The number k below c * d names the pair (k / d, k % d): the first coordinate is below c, -/
theorem div_lt {n k : ℕ} (hn : c * d = n) (hk : k < n) : k / d < c :=
  Nat.div_lt_of_lt_mul (by rw [Nat.mul_comm, hn]; exact hk)

/-- and the second is below d. -/
theorem mod_lt {n k : ℕ} (hn : c * d = n) (hk : k < n) : k % d < d :=
  Nat.mod_lt _ (Nat.pos_of_ne_zero (by rintro rfl; rw [Nat.mul_zero] at hn; omega))

/-- A double sum over Fin c x Fin d is the sum over the n = c * d pairs in row-major order. -/
theorem sum_pairs_eq_sum_flat {M : Type*} [AddCommMonoid M] {n : ℕ} (hn : c * d = n) (f : Fin c → Fin d → M) :
    ∑ r : Fin c, ∑ s : Fin d, f r s
      = ∑ k : Fin n, f ⟨k.val / d, div_lt hn k.isLt⟩ ⟨k.val % d, mod_lt hn k.isLt⟩ := by
  subst hn
  rw [← Fintype.sum_prod_type', ← Equiv.sum_comp finProdFinEquiv.symm]
  rfl

end Cert.LastTwoAxesSum
-- ==== Proof.RefScores.lean ====
/-
  The reference computes the scores.

  Its pooled feature at (b, c) is the host's sum of the feature map over its two spatial axes, from zero,
  divided by 196: the sum over the pairs (r, s) of the entries (b, c, r, s), which in row-major order of the
  pairs is the sum of the 196 planes; and dividing an extended real by 196 is multiplying it by 1/196. The
  product with the transposed weights contracts the channel axis, the bias is broadcast along the rows, and the
  final division by 1 changes nothing.
-/
import proofs.«145794_g31404800868898_cont_8to1_b_1653_12_alg».proof.Proof.Gen.ReferenceIdeal.Read
import proofs.«145794_g31404800868898_cont_8to1_b_1653_12_alg».proof.Proof.PoolSpec
import proofs.«145794_g31404800868898_cont_8to1_b_1653_12_alg».proof.Proof.LibLastTwoAxesSum

noncomputable section

namespace Cert.ReferenceIdeal.RefValue

open Cert.ReferenceIdeal Cert.ReferenceIdeal.Gen Cert.ReferenceIdeal.Read Cert.PoolSpec
open Idealize.ShloMosaic Idealize.ShloMosaic.ValueIdx

/-- The host's sum over the two spatial axes, at (b, k), is the sum of the 196 planes. -/
theorem spatialSum_apply (x0 : (⟨S1024x768x14x14, .f32⟩ : BufTy).Contents (Elt Ideal)) (b : Fin 1024) (k : Fin 768) :
    val_main_v0 (F := Ideal) x0 (ix2 b k) = planeSum x0 196 b k := by
  show Ideal.hostReduceAdd reducesTo_S1024x768x14x14_S1024x768_d2_3 x0 (Ideal.ofBits .f32 0x00000000#32) (ix2 b k) = _
  rw [Cert.LastTwoAxesSum.hostSum_last2, Ideal.ofBits_zero_f32, zero_add, planeSum_all,
    Cert.LastTwoAxesSum.sum_pairs_eq_sum_flat (n := 196) rfl]

/-- The left operand of the product at output (b, o) and channel k is the pooled feature at (b, k); -/
theorem lidx_eq (b : Fin 1024) (o : Fin 10) (k : Fin 768) : lidx_main_v4 (ix2 b o) k = ix2 b k :=
  funext fun a => Fin.ext (by match a with | ⟨0, _⟩ => rfl | ⟨1, _⟩ => rfl)

/-- the right operand, through the transpose, is the weight at (o, k); -/
theorem ridx_eq (b : Fin 1024) (o : Fin 10) (k : Fin 768) : idx_main_v3 (ridx_main_v4 (ix2 b o) k) = ix2 o k :=
  funext fun a => Fin.ext (by match a with | ⟨0, _⟩ => rfl | ⟨1, _⟩ => rfl)

/-- and the bias, through its two broadcasts, is read at o. -/
theorem bidx_eq (b : Fin 1024) (o : Fin 10) : idx_main_v5 (idx_main_v6 (ix2 b o)) = ix1 o :=
  funext fun a => Fin.ext (by match a with | ⟨0, _⟩ => rfl)

/-- The reference's result is the scores array. -/
theorem result_eq (x0 : (⟨S1024x768x14x14, .f32⟩ : BufTy).Contents (Elt Ideal))
    (x1 : (⟨S10x768, .f32⟩ : BufTy).Contents (Elt Ideal)) (x2 : (⟨S10, .f32⟩ : BufTy).Contents (Elt Ideal)) :
    val_main_v9 (F := Ideal) x0 x1 x2 = scores x0 x1 x2 := by
  funext i
  obtain ⟨b, o, rfl⟩ : ∃ (b : Fin 1024) (o : Fin 10), i = ix2 b o := ⟨i 0, i 1, eq_ix2 i⟩
  rw [val_main_v9_apply, val_main_v7_apply, val_main_v4_apply, val_main_v6_apply, val_main_v5_apply,
    val_main_v8_apply, val_main_cst_1_apply, scores_apply]
  simp only [val_main_v2_apply, val_main_v1_apply, val_main_cst_0_apply, val_main_v3_apply, lidx_eq, ridx_eq, bidx_eq,
    spatialSum_apply, Ideal.hostDivf_def, Ideal.addf_def, Ideal.ofBits_def, div_196, div_one]
  rfl

end Cert.ReferenceIdeal.RefValue

end
-- ==== Proof.lean ====
/-
  Global average pooling and a linear classifier in one kernel, against the same computation written with jnp.

  The kernel views the feature map [1024, 768, 14, 14] as 196 planes [1024, 768], one per spatial position, and
  walks them four at a time over 49 grid points, adding each block's four planes into an accumulator that it
  carries from point to point. At the last point it scales the accumulator by the named constant 1/196,
  multiplies it against the weights [10, 768] along the channel axis, adds the bias, and stores the scores
  [1024, 10]. The reference sums the feature map over its two spatial axes, divides by 196, multiplies by the
  transposed weights, adds the bias and divides by 1.

  Over the extended reals both are the same function: the score at (b, o) is the sum over channels k of
  (the sum of the 196 planes at (b, k)) · (1/196) · weight (o, k), plus bias o.
  - The kernel's side: by induction over the grid points the accumulator after point n is the sum of the first
    4 (n + 1) planes (Accumulate), so after the last point it is the sum of all 196, and the one block written
    back, which covers the result array, holds the scores (KernelScores).
  - The reference's side: the host's sum over the two spatial axes at (b, k) is the sum over the pairs (r, s),
    which in row-major order is the sum of the 196 planes; dividing by 196 is multiplying by 1/196 on every
    extended real, and dividing by 1 is the identity (RefScores).
  Regrouping the 196 planes four at a time uses only that addition on the extended reals is commutative and
  associative, so the finiteness of the inputs is never used.

  The three frames are the generated frame runs (the reference's is its generated run with the result dropped),
  and the one rewrite of the idealization, the literal 0.005102040711790323 read as 1/196, is its rule's statement.
-/
import proofs.«145794_g31404800868898_cont_8to1_b_1653_12_alg».proof.Defs
import proofs.«145794_g31404800868898_cont_8to1_b_1653_12_alg».proof.Proof.Gen.Kernel
import proofs.«145794_g31404800868898_cont_8to1_b_1653_12_alg».proof.Proof.Gen.Kernel.Skeleton
import proofs.«145794_g31404800868898_cont_8to1_b_1653_12_alg».proof.Proof.Gen.Kernel.Launch
import proofs.«145794_g31404800868898_cont_8to1_b_1653_12_alg».proof.Proof.Gen.Kernel.Points
import proofs.«145794_g31404800868898_cont_8to1_b_1653_12_alg».proof.Proof.Gen.Kernel.Frame
import proofs.«145794_g31404800868898_cont_8to1_b_1653_12_alg».proof.Proof.Gen.KernelIdeal
import proofs.«145794_g31404800868898_cont_8to1_b_1653_12_alg».proof.Proof.Gen.KernelIdeal.Skeleton
import proofs.«145794_g31404800868898_cont_8to1_b_1653_12_alg».proof.Proof.Gen.KernelIdeal.Launch
import proofs.«145794_g31404800868898_cont_8to1_b_1653_12_alg».proof.Proof.Gen.KernelIdeal.Points
import proofs.«145794_g31404800868898_cont_8to1_b_1653_12_alg».proof.Proof.Gen.KernelIdeal.Frame
import proofs.«145794_g31404800868898_cont_8to1_b_1653_12_alg».proof.Proof.Gen.ReferenceIdeal
import proofs.«145794_g31404800868898_cont_8to1_b_1653_12_alg».proof.Proof.Gen.Pre_finite_inputs
import proofs.«145794_g31404800868898_cont_8to1_b_1653_12_alg».proof.Proof.Gen.KernelIdeal.Value
import proofs.«145794_g31404800868898_cont_8to1_b_1653_12_alg».proof.Proof.Gen.ReferenceIdeal.Run
import proofs.«145794_g31404800868898_cont_8to1_b_1653_12_alg».proof.Proof.Gen.ReferenceIdeal.Read
import proofs.«145794_g31404800868898_cont_8to1_b_1653_12_alg».proof.Proof.KernelScores
import proofs.«145794_g31404800868898_cont_8to1_b_1653_12_alg».proof.Proof.RefScores
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's one rewrite: the table gives the name the value 1/196, and the printed constant is that
    value over the extended reals. -/
theorem preserves : Cert.preserves_Kernel_KernelIdeal :=
  IdealRules.named_const.statement Cert.KernelIdeal.κ "inv_196" .f32 0x3BA72F05#32 ((1 / 196 : ℝ) : EReal) rfl

/-- Both programs end with the scores of the arguments: the kernel's result array by its run read back, the
    reference's by its run and its stages composed, the arguments agreeing. -/
theorem algebraic : Cert.algebraic_KernelIdeal_ReferenceIdeal := by
  intro m ρ m' ρ' _ hagree
  refine ⟨fun c => Cert.KernelIdeal.KernelScores.result m c, Cert.KernelIdeal.KernelScores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
